-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_arg4 : FVec F S2048x8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  main_v23

def fn {F : FTy → Type} [FloatOps F] (main_arg0 : FVec F S2x2048x2048 .f32) (main_arg1 : FVec F S8192x2048 .f32) (main_arg2 : FVec F S8192x2048 .f32) (main_arg3 : FVec F S8192x2048 .f32) (main_arg4 : FVec F S2048x8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S4096x2048 : Shape := ⟨2, ![4096, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 12
  | .vmem => 11
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048x8192, .f32⟩
  | .hbm, ⟨5, _⟩ => ⟨S4096x2048, .f32⟩
  | .hbm, ⟨6, _⟩ => ⟨S4096x2048, .bf16⟩
  | .hbm, ⟨7, _⟩ => ⟨S8192x2048, .bf16⟩
  | .hbm, ⟨8, _⟩ => ⟨S8192x2048, .bf16⟩
  | .hbm, ⟨9, _⟩ => ⟨S2048x8192, .bf16⟩
  | .hbm, ⟨10, _⟩ => ⟨S4096x2048, .f32⟩
  | .hbm, ⟨11, _⟩ => ⟨S2x2048x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x2048x2048_S4096x2048 : S2x2048x2048.ShapeCasts S4096x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S4096x2048_S2x2048x2048 : S4096x2048.ShapeCasts S2x2048x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x2048.size a
  hwx0_4 : ∀ i : grid0.Coords, EltTy.bits .f32 = 32 ∨ (Rect.block (s := S4096x2048) S512x2048.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S2x2048x8192 : Shape := ⟨3, ![2, 2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048x8192, .f32⟩
  | .hbm, ⟨5, _⟩ => ⟨S2x2048x8192, .f32⟩
  | .hbm, ⟨6, _⟩ => ⟨S2x2048x8192, .f32⟩
  | .hbm, ⟨7, _⟩ => ⟨S2x2048x8192, .f32⟩
  | .hbm, ⟨8, _⟩ => ⟨S2x2048x8192, .f32⟩
  | .hbm, ⟨9, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.CaseValues.lean ====
/-
  What each control case of the kernel body leaves behind, as values.

  The body keeps a [512, 2048] accumulator across the lattice axis of the grid. At every point it adds to
  the accumulator the product of the point's blocks: with `x` the row block of the hidden states, `wq`, `wv`
  the lattice blocks of the two projection weights and `wo` the lattice block of the output weights, the
  new accumulator is `acc + ((x · wqᵀ) ⊙ (x · wvᵀ)) · woᵀ` (`step`). At the first lattice block the
  accumulator is first set to zero; at the last one the new accumulator is also stored as the output block.
-/
import proofs.«146152_j46780783788220_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- One accumulation step: the old accumulator plus the product of the point's four blocks. -/
def step (x wq wv : Vec F S512x2048 .bf16) (wo : Vec F S2048x512 .bf16) (acc : Vec F S512x2048 .f32) :
    Vec F S512x2048 .f32 :=
  k0_pay2 x wq x wv acc wo

/-- The zero block the first lattice block starts from. -/
def zeroAcc : Vec F S512x2048 .f32 := k0_pay1

variable (c : Dev nD) (i : grid0.Coords)
  (arg2 : Memref sig .tc .vmem S512x2048 .bf16) (harg2 : arg2.IsWhole)
  (arg3 : Memref sig .tc .vmem S512x2048 .bf16) (harg3 : arg3.IsWhole)
  (arg4 : Memref sig .tc .vmem S512x2048 .bf16) (harg4 : arg4.IsWhole)
  (arg5 : Memref sig .tc .vmem S2048x512 .bf16) (harg5 : arg5.IsWhole)
  (arg6 : Memref sig .tc .vmem S512x2048 .f32) (harg6 : arg6.IsWhole)
  (arg7 : Memref sig .tc .vmem S512x2048 .f32) (harg7 : arg7.IsWhole)
  (x0 x1 x2 : Vec F S512x2048 .bf16) (x3 : Vec F S2048x512 .bf16)

/-- A middle lattice block: the accumulator becomes one step over what the point before left. -/
theorem scratch_B (hc0 : ¬cond0_0 i) (hc1 : ¬cond0_1 i) (xs0 : Vec F S512x2048 .f32) :
    sout0_B_0 c i arg2 harg2 arg3 harg3 arg4 harg4 arg5 harg5 arg6 harg6 arg7 harg7 hc0 hc1 x0 x1 x2 x3 xs0 = step x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg4.read_unread, harg5.read_unread, harg7.read_unread,
    View.ld_unit_zero (S := S512x2048) hz, View.ld_unit_zero (S := S2048x512) hz]
  rfl

/-- The last lattice block: the accumulator becomes one step over what the point before left, -/
theorem scratch_C (hc0 : ¬cond0_0 i) (hc1 : cond0_1 i) (xs0 : Vec F S512x2048 .f32) :
    sout0_C_0 c i arg2 harg2 arg3 harg3 arg4 harg4 arg5 harg5 arg6 harg6 arg7 harg7 hc0 hc1 x0 x1 x2 x3 xs0 = step x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S512x2048) hz, View.ld_unit_zero (S := S2048x512) hz]
  rfl

/-- and the output block is stored with that same new accumulator. -/
theorem output_C (hc0 : ¬cond0_0 i) (hc1 : cond0_1 i) (xs0 : Vec F S512x2048 .f32) :
    out0_C_4 c i arg2 harg2 arg3 harg3 arg4 harg4 arg5 harg5 arg6 harg6 arg7 harg7 hc0 hc1 x0 x1 x2 x3 xs0 = step x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg7.read_unread,
    View.ld_unit_zero (S := S512x2048) hz, View.ld_unit_zero (S := S2048x512) hz]
  rfl

/-- The first lattice block: the accumulator is zeroed and then takes one step. -/
theorem scratch_A (hc0 : cond0_0 i) (hc1 : ¬cond0_1 i) :
    sout0_A_0 c i arg2 harg2 arg3 harg3 arg4 harg4 arg5 harg5 arg6 harg6 arg7 harg7 hc0 hc1 x0 x1 x2 x3 = step x0 x1 x2 x3 zeroAcc := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread,
    View.ld_unit_zero (S := S512x2048) hz, View.ld_unit_zero (S := S2048x512) hz]
  rfl

end Cert.KernelIdeal.Acc

end
-- ==== Proof.PointValues.lean ====
/-
  The accumulator, and the output block, after each grid point.

  The grid has 8 row tiles × 16 lattice blocks, visited row tile by row tile; point `t` is lattice block
  `t % 16` of row tile `t / 16`. After a point the accumulator is one step over the zero block (first lattice
  block of a row tile) or over what the point before left (the others); at the last lattice block of a row
  tile the output block is stored with that same value.
-/
import proofs.«146152_j46780783788220_2_alg».proof.Proof.CaseValues

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- First lattice block of a row tile. -/
theorem acc_first (c : Dev nD) (t : Fin cfg0.N) (h0 : t.val % 16 = 0) (h1 : ¬t.val % 16 = 15) :
    (outsAt0 m c t.val t.isLt).2 = step (iblk m c 0 t) (iblk m c 1 t) (iblk m c 2 t) (iblk m c 3 t) zeroAcc := by
  rw [outsAt0_A m c t h0 h1]
  dsimp only
  exact scratch_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (iblk m c 0 t) (iblk m c 1 t) (iblk m c 2 t) (iblk m c 3 t) ((hcond0_0 t).mpr h0) (fun h => h1 ((hcond0_1 t).mp h))

/-- A middle lattice block. -/
theorem acc_middle (c : Dev nD) (t : Fin cfg0.N) (h0 : ¬t.val % 16 = 0) (h1 : ¬t.val % 16 = 15) :
    (outsAt0 m c t.val t.isLt).2 = step (iblk m c 0 t) (iblk m c 1 t) (iblk m c 2 t) (iblk m c 3 t) (outsAt0 m c (t.val - 1) (Nat.lt_of_le_of_lt (Nat.sub_le _ _) t.isLt)).2 := by
  rw [outsAt0_B m c t h0 h1]
  dsimp only
  exact scratch_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (iblk m c 0 t) (iblk m c 1 t) (iblk m c 2 t) (iblk m c 3 t) (fun h => h0 ((hcond0_0 t).mp h)) (fun h => h1 ((hcond0_1 t).mp h)) (outsAt0 m c (t.val - 1) (Nat.lt_of_le_of_lt (Nat.sub_le _ _) t.isLt)).2

/-- The last lattice block: the accumulator, -/
theorem acc_last (c : Dev nD) (t : Fin cfg0.N) (h0 : ¬t.val % 16 = 0) (h1 : t.val % 16 = 15) :
    (outsAt0 m c t.val t.isLt).2 = step (iblk m c 0 t) (iblk m c 1 t) (iblk m c 2 t) (iblk m c 3 t) (outsAt0 m c (t.val - 1) (Nat.lt_of_le_of_lt (Nat.sub_le _ _) t.isLt)).2 := by
  rw [outsAt0_C m c t h0 h1]
  dsimp only
  exact scratch_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (iblk m c 0 t) (iblk m c 1 t) (iblk m c 2 t) (iblk m c 3 t) (fun h => h0 ((hcond0_0 t).mp h)) ((hcond0_1 t).mpr h1) (outsAt0 m c (t.val - 1) (Nat.lt_of_le_of_lt (Nat.sub_le _ _) t.isLt)).2

/-- and the output block, which holds the same value. -/
theorem out_last (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (output_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (iblk m c 0 t) (iblk m c 1 t) (iblk m c 2 t) (iblk m c 3 t) (fun h => h0 ((hcond0_0 t).mp h)) ((hcond0_1 t).mpr h1) (outsAt0 m c (t.val - 1) (Nat.lt_of_le_of_lt (Nat.sub_le _ _) t.isLt)).2).trans
    (scratch_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (iblk m c 0 t) (iblk m c 1 t) (iblk m c 2 t) (iblk m c 3 t) (fun h => h0 ((hcond0_0 t).mp h)) ((hcond0_1 t).mpr h1) (outsAt0 m c (t.val - 1) (Nat.lt_of_le_of_lt (Nat.sub_le _ _) t.isLt)).2).symm

end Cert.KernelIdeal.Acc

end
-- ==== Proof.StepValue.lean ====
/-
  One accumulation step, read at an index over the extended reals.

  Both matrix products of the body contract the trailing axis of both operands, into a zero accumulator:
  entry (r, l) of `a · bᵀ` is `∑ k, a (r, k) * b (l, k)`. The elementwise product and the change of float
  format between the two products are, over the extended reals, the product and the identity. So one step adds
  to entry (r, e) of the accumulator
    `∑ l, ((∑ k, x (r, k) * wq (l, k)) * (∑ k, x (r, k) * wv (l, k))) * wo (e, l)`.
-/
import proofs.«146152_j46780783788220_2_alg».proof.Proof.CaseValues
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

/-! ### The two products' operand indices -/

theorem rows_lhs_row (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem rows_rhs_row (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem out_lhs_row (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem out_rhs_row (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl

/-- Entry (r, l) of `a · bᵀ` over the 2048 embedding coordinates. -/
theorem rows_product (a b : FVec Ideal S512x2048 .bf16) (r l : Fin 512) :
    matmul dot_S512x2048_S512x2048_S512x512_1_1_0_0_n_n none a b (constant S512x512 .f32 0x00000000#32) (ix2 r l)
      = ∑ k : Fin 2048, a (ix2 r k) * b (ix2 l k) := by
  show FloatOps.matmul dot_S512x2048_S512x2048_S512x512_1_1_0_0_n_n none a b (constant S512x512 .f32 0x00000000#32) (ix2 r l) = _
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 r l) ((contrEquiv1 dot_S512x2048_S512x2048_S512x512_1_1_0_0_n_n 2048 rfl rfl).symm k) = ix2 r k := funext fun a => Fin.ext (by
    match a with
    | ⟨0, _⟩ => exact rows_lhs_row _ _
    | ⟨1, _⟩ => exact ((dot_S512x2048_S512x2048_S512x512_1_1_0_0_n_n.lhsIdx_val_of_single rfl _ _).trans hk))
  have er : dot_S512x2048_S512x2048_S512x512_1_1_0_0_n_n.rhsIdx (ix2 r l) ((contrEquiv1 dot_S512x2048_S512x2048_S512x512_1_1_0_0_n_n 2048 rfl rfl).symm k) = ix2 l k := funext fun a => Fin.ext (by
    match a with
    | ⟨0, _⟩ => exact rows_rhs_row _ _
    | ⟨1, _⟩ => exact ((dot_S512x2048_S512x2048_S512x512_1_1_0_0_n_n.rhsIdx_val_of_single rfl _ _).trans hk))
  rw [el, er]

/-- Entry (r, e) of `p · wᵀ` over the 512 lattice coordinates of the block. -/
theorem out_product (p : FVec Ideal S512x512 .bf16) (w : FVec Ideal S2048x512 .bf16) (r : Fin 512) (e : Fin 2048) :
    matmul dot_S512x512_S2048x512_S512x2048_1_1_0_0_n_n none p w (constant S512x2048 .f32 0x00000000#32) (ix2 r e)
      = ∑ l : Fin 512, p (ix2 r l) * w (ix2 e l) := by
  show FloatOps.matmul dot_S512x512_S2048x512_S512x2048_1_1_0_0_n_n none p w (constant S512x2048 .f32 0x00000000#32) (ix2 r e) = _
  rw [Ideal.matmul_constant_zero_apply, ← Equiv.sum_comp (contrEquiv1 dot_S512x512_S2048x512_S512x2048_1_1_0_0_n_n 512 rfl rfl).symm]
  refine Finset.sum_congr rfl fun l _ => ?_
  have hl := contrEquiv1_symm_val dot_S512x512_S2048x512_S512x2048_1_1_0_0_n_n 512 rfl rfl l
  have el : dot_S512x512_S2048x512_S512x2048_1_1_0_0_n_n.lhsIdx (ix2 r e) ((contrEquiv1 dot_S512x512_S2048x512_S512x2048_1_1_0_0_n_n 512 rfl rfl).symm l) = ix2 r l := funext fun a => Fin.ext (by
    match a with
    | ⟨0, _⟩ => exact out_lhs_row _ _
    | ⟨1, _⟩ => exact ((dot_S512x512_S2048x512_S512x2048_1_1_0_0_n_n.lhsIdx_val_of_single rfl _ _).trans hl))
  have er : dot_S512x512_S2048x512_S512x2048_1_1_0_0_n_n.rhsIdx (ix2 r e) ((contrEquiv1 dot_S512x512_S2048x512_S512x2048_1_1_0_0_n_n 512 rfl rfl).symm l) = ix2 e l := funext fun a => Fin.ext (by
    match a with
    | ⟨0, _⟩ => exact out_rhs_row _ _
    | ⟨1, _⟩ => exact ((dot_S512x512_S2048x512_S512x2048_1_1_0_0_n_n.rhsIdx_val_of_single rfl _ _).trans hl))
  rw [el, er]

/-- The lattice-block contribution to entry (r, e): the sum, over the block's 512 lattice coordinates, of the
    product of the two projections at that coordinate times the output weight. -/
def contribution (x wq wv : S512x2048.Idx → EReal) (wo : S2048x512.Idx → EReal) (r : Fin 512) (e : Fin 2048) : EReal :=
  ∑ l : Fin 512, ((∑ k : Fin 2048, x (ix2 r k) * wq (ix2 l k)) * (∑ k : Fin 2048, x (ix2 r k) * wv (ix2 l k))) * wo (ix2 e l)

/-- One step adds the block's contribution to each entry of the accumulator. -/
theorem step_apply (x wq wv : Vec Ideal S512x2048 .bf16) (wo : Vec Ideal S2048x512 .bf16) (acc : Vec Ideal S512x2048 .f32)
    (r : Fin 512) (e : Fin 2048) :
    step (F := Ideal) x wq wv wo acc (ix2 r e) = acc (ix2 r e) + contribution x wq wv wo r e := by
  unfold step k0_pay2 contribution
  simp only [shapeCast_self]
  rw [addf_apply, out_product]
  refine congrArg (acc (ix2 r e) + ·) (Finset.sum_congr rfl fun l _ => ?_)
  rw [truncf_apply, mulf_apply, rows_product, rows_product]

/-- The zero block is zero at every entry. -/
theorem zeroAcc_apply (y : S512x2048.Idx) : zeroAcc (F := Ideal) y = 0 := by
  unfold zeroAcc k0_pay1
  simp only [shapeCast_self]
  show Ideal.ofBits .f32 0x00000000#32 = 0
  exact Ideal.ofBits_zero_f32

end Cert.KernelIdeal.Acc

end
-- ==== Proof.BlockSum.lean ====
/-
  Regrouping a finite sum into consecutive blocks.

  A sum over `Fin (a * b)` is the sum over the `a` consecutive blocks of length `b` of the
  block sums: index `b * j + r` is entry `r` of block `j`. This holds in every additive
  commutative monoid (only commutativity and associativity of `+` are used), so in particular on
  the extended reals, where no finiteness is needed.
-/
import Mathlib.Algebra.BigOperators.Fin
import Mathlib.Algebra.BigOperators.Group.Finset.Basic
import Mathlib.Logic.Equiv.Fin.Basic

namespace BlockSum

open Finset

/-- Entry `r` of block `j`, as an index of the whole range. -/
def idx (a b : ℕ) (j : Fin a) (r : Fin b) : Fin (a * b) :=
  ⟨b * j.val + r.val, by
    have hj := j.isLt
    have hr := r.isLt
    calc b * j.val + r.val < b * j.val + b := by omega
      _ = b * (j.val + 1) := (Nat.mul_succ b j.val).symm
      _ ≤ b * a := Nat.mul_le_mul_left b hj
      _ = a * b := Nat.mul_comm b a⟩

@[simp] theorem idx_val (a b : ℕ) (j : Fin a) (r : Fin b) : (idx a b j r).val = b * j.val + r.val := rfl

/-- The whole sum is the sum of the block sums. -/
theorem sum_blocks {M : Type*} [AddCommMonoid M] (a b : ℕ) (f : Fin (a * b) → M) :
    ∑ l : Fin (a * b), f l = ∑ j : Fin a, ∑ r : Fin b, f (idx a b j r) := by
  rw [← Fintype.sum_prod_type']
  refine (Fintype.sum_equiv finProdFinEquiv _ _ ?_).symm
  rintro ⟨j, r⟩
  refine congrArg f (Fin.ext ?_)
  simp [finProdFinEquiv, idx_val, Nat.add_comm]

end BlockSum
-- ==== Proof.LatticeSpec.lean ====
/-
  The function both programs compute, over the extended reals.

  With `hs` the hidden states flattened to 4096 rows of 2048 embedding coordinates, `wq`, `wv` the two
  projection weights (8192 lattice coordinates × 2048) and `wo` the output weights (2048 × 8192), entry (R, e) of
  the result is
      `∑ λ < 8192, ((∑ k, hs (R, k) * wq (λ, k)) * (∑ k, hs (R, k) * wv (λ, k))) * wo (e, λ)`.
  The lattice axis is cut into 16 consecutive blocks of 512; the part of the sum that block `j` contributes to
  row `r` of row tile `I` is `blockPart I j r e`, and the 16 parts add up to the whole sum. That is a regrouping
  of a finite sum, valid in any additive commutative monoid: nothing here needs the entries to be finite.
-/
import proofs.«146152_j46780783788220_2_alg».proof.Proof.BlockSum
import Idealize.ShloMosaic.Lib.ValueIdx

noncomputable section

namespace LatticeSpec

open Idealize.ShloMosaic Idealize.ShloMosaic.ValueIdx

/-- 4096 rows (batch × sequence, flattened) of 2048 embedding coordinates: the flattened hidden states, and the result. -/
abbrev Rows : Shape := ⟨2, ![4096, 2048]⟩
/-- A projection weight: 8192 lattice coordinates × 2048 embedding coordinates. -/
abbrev Proj : Shape := ⟨2, ![8192, 2048]⟩
/-- The output weight: 2048 embedding coordinates × 8192 lattice coordinates. -/
abbrev OutW : Shape := ⟨2, ![2048, 8192]⟩
/-- Batch × sequence × embedding. -/
abbrev Hid : Shape := ⟨3, ![2, 2048, 2048]⟩

variable (hs : Rows.Idx → EReal) (wq wv : Proj.Idx → EReal) (wo : OutW.Idx → EReal)

/-- The contribution of lattice coordinate `lam` to entry (R, e): the two projections of row `R` at `lam`,
    multiplied, times the output weight. -/
def term (R : Fin 4096) (e : Fin 2048) (lam : Fin 8192) : EReal :=
  ((∑ k : Fin 2048, hs (ix2 R k) * wq (ix2 lam k)) * (∑ k : Fin 2048, hs (ix2 R k) * wv (ix2 lam k))) * wo (ix2 e lam)

/-- Entry (R, e) of the result: the sum over all 8192 lattice coordinates. -/
def result (R : Fin 4096) (e : Fin 2048) : EReal := ∑ lam : Fin 8192, term hs wq wv wo R e lam

/-- What lattice block `j` (of 16) contributes to row `r` of row tile `I` (of 8), column `e`. Zero outside the
    two ranges, so that it is a function of plain natural numbers. -/
def blockPart (I j : ℕ) (r : Fin 512) (e : Fin 2048) : EReal :=
  if h : I < 8 ∧ j < 16 then
    ∑ l : Fin 512, term hs wq wv wo ⟨512 * I + r.val, by have := r.isLt; omega⟩ e ⟨512 * j + l.val, by have := l.isLt; omega⟩
  else 0

/-- The sixteen block parts of a row add up to its entry of the result. -/
theorem sum_blockParts (I : ℕ) (hI : I < 8) (r : Fin 512) (e : Fin 2048) :
    ∑ j ∈ Finset.range 16, blockPart hs wq wv wo I j r e
      = result hs wq wv wo ⟨512 * I + r.val, by have := r.isLt; omega⟩ e := by
  rw [Finset.sum_range]
  unfold result
  refine Eq.trans ?_ (BlockSum.sum_blocks 16 512 (fun lam : Fin (16 * 512) =>
    term hs wq wv wo ⟨512 * I + r.val, by have := r.isLt; omega⟩ e lam)).symm
  refine Finset.sum_congr rfl fun j _ => ?_
  unfold blockPart
  rw [dif_pos ⟨hI, j.isLt⟩]
  rfl

/-- The hidden states with batch and sequence flattened: row `R` is sequence position `R % 2048` of batch `R / 2048`. -/
def flat (x : Hid.Idx → EReal) : Rows.Idx → EReal := fun y =>
  x (ix3 ⟨(y 0).val / 2048, by have := idx2_lt0 y; omega⟩ ⟨(y 0).val % 2048, Nat.mod_lt _ (by norm_num)⟩ (y 1))

/-- Row `2048 * b + s` of the flattened hidden states is sequence position `s` of batch `b`. -/
theorem flat_apply (x : Hid.Idx → EReal) (b : Fin 2) (s k : Fin 2048) :
    flat x (ix2 ⟨2048 * b.val + s.val, by have := b.isLt; have := s.isLt; omega⟩ k) = x (ix3 b s k) := by
  unfold flat
  refine congrArg x ?_
  have hb := b.isLt
  have hs := s.isLt
  funext a
  match a with
  | ⟨0, _⟩ => exact Fin.ext (show (2048 * b.val + s.val) / 2048 = b.val by omega)
  | ⟨1, _⟩ => exact Fin.ext (show (2048 * b.val + s.val) % 2048 = s.val by omega)
  | ⟨2, _⟩ => rfl

end LatticeSpec

end
-- ==== Proof.EntryArrays.lean ====
/-
  The four arrays the kernel's windows read, and each window's block at a grid point.

  Before the kernel runs, the hidden states are flattened to 4096 rows and every operand is converted to the
  kernel's input format; over the extended reals a change of float format is the identity, so the arrays the
  windows read are the flattened hidden states and the three weights themselves. At point `t` (row tile
  `t / 16`, lattice block `t % 16`) the hidden-state window holds rows `512 * (t / 16) + r`, the two projection
  windows hold lattice rows `512 * (t % 16) + l`, and the output-weight window holds lattice columns
  `512 * (t % 16) + l`. A block's coordinate is always the block index times the block size plus the
  coordinate inside the block.
-/
import proofs.«146152_j46780783788220_2_alg».proof.Proof.Gen.KernelIdeal.Frame
import proofs.«146152_j46780783788220_2_alg».proof.Proof.LatticeSpec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

/-- The row tile of a grid point is one of 8, -/
theorem tile_lt (t : Fin cfg0.N) : t.val / 16 < 8 := by
  have h : t.val < 128 := lt_of_lt_of_eq t.isLt N_0
  omega
/-- and its lattice block one of 16. -/
theorem block_lt (t : Fin cfg0.N) : t.val % 16 < 16 := Nat.mod_lt _ (by norm_num)

/-- The windows' block indices at a grid point, decided over the grid. -/
theorem index_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

section Blocks
variable {F : FTy → Type} [FloatOps F]
variable (m : (ℓ : Loc nD τ sig) → Buf (Elt F) ℓ)

/-- The flattened hidden states, as the kernel finds them. -/
abbrev hiddenRows (c : Dev nD) : Vec F S4096x2048 .bf16 := V m c main_v1
/-- The first projection weight, as the kernel finds it. -/
abbrev projQ (c : Dev nD) : Vec F S8192x2048 .bf16 := V m c main_v2
/-- The second projection weight, as the kernel finds it. -/
abbrev projV (c : Dev nD) : Vec F S8192x2048 .bf16 := V m c main_v3
/-- The output weight, as the kernel finds it. -/
abbrev outW (c : Dev nD) : Vec F S2048x8192 .bf16 := V m c main_v4

/-- The hidden-state window at a point: 512 rows of the row tile, all embedding coordinates. -/
theorem hidden_block (c : Dev nD) (t : Fin cfg0.N) (r : Fin 512) (k : Fin 2048) :
    (iblk m c 0 t : Vec F S512x2048 .bf16) (ix2 r k)
      = hiddenRows m c (ix2 ⟨512 * (t.val / 16) + r.val, by have := r.isLt; have := k.isLt; have := tile_lt t; have := block_lt t; omega⟩ ⟨k.val, by have := r.isLt; have := k.isLt; have := tile_lt t; have := block_lt t; omega⟩) := by
  obtain ⟨f00, f01, f10, f11, f20, f21, f30, f31, f40, f41⟩ := index_facts t
  unfold iblk
  rw [View.read_apply]
  show V m c main_v1 _ = V m c main_v1 _
  congr 1
  funext d; apply Fin.ext
  match d with
  | ⟨0, _⟩ => show win0_0.index t (0 : Fin 2) * 512 + 1 * r.val = 512 * (t.val / 16) + r.val; rw [f00]; omega
  | ⟨1, _⟩ => show win0_0.index t (1 : Fin 2) * 2048 + 1 * k.val = k.val; rw [f01]; omega

/-- The first projection's window at a point: 512 lattice rows of the lattice block. -/
theorem wq_block (c : Dev nD) (t : Fin cfg0.N) (l : Fin 512) (k : Fin 2048) :
    (iblk m c 1 t : Vec F S512x2048 .bf16) (ix2 l k)
      = projQ m c (ix2 ⟨512 * (t.val % 16) + l.val, by have := l.isLt; have := k.isLt; have := tile_lt t; have := block_lt t; omega⟩ ⟨k.val, by have := l.isLt; have := k.isLt; have := tile_lt t; have := block_lt t; omega⟩) := by
  obtain ⟨f00, f01, f10, f11, f20, f21, f30, f31, f40, f41⟩ := index_facts t
  unfold iblk
  rw [View.read_apply]
  show V m c main_v2 _ = V m c main_v2 _
  congr 1
  funext d; apply Fin.ext
  match d with
  | ⟨0, _⟩ => show win0_1.index t (0 : Fin 2) * 512 + 1 * l.val = 512 * (t.val % 16) + l.val; rw [f10]; omega
  | ⟨1, _⟩ => show win0_1.index t (1 : Fin 2) * 2048 + 1 * k.val = k.val; rw [f11]; omega

/-- The second projection's window at a point: the same lattice rows. -/
theorem wv_block (c : Dev nD) (t : Fin cfg0.N) (l : Fin 512) (k : Fin 2048) :
    (iblk m c 2 t : Vec F S512x2048 .bf16) (ix2 l k)
      = projV m c (ix2 ⟨512 * (t.val % 16) + l.val, by have := l.isLt; have := k.isLt; have := tile_lt t; have := block_lt t; omega⟩ ⟨k.val, by have := l.isLt; have := k.isLt; have := tile_lt t; have := block_lt t; omega⟩) := by
  obtain ⟨f00, f01, f10, f11, f20, f21, f30, f31, f40, f41⟩ := index_facts t
  unfold iblk
  rw [View.read_apply]
  show V m c main_v3 _ = V m c main_v3 _
  congr 1
  funext d; apply Fin.ext
  match d with
  | ⟨0, _⟩ => show win0_2.index t (0 : Fin 2) * 512 + 1 * l.val = 512 * (t.val % 16) + l.val; rw [f20]; omega
  | ⟨1, _⟩ => show win0_2.index t (1 : Fin 2) * 2048 + 1 * k.val = k.val; rw [f21]; omega

/-- The output weights' window at a point: all embedding rows, 512 lattice columns of the lattice block. -/
theorem wo_block (c : Dev nD) (t : Fin cfg0.N) (e : Fin 2048) (l : Fin 512) :
    (iblk m c 3 t : Vec F S2048x512 .bf16) (ix2 e l)
      = outW m c (ix2 ⟨e.val, by have := e.isLt; have := l.isLt; have := tile_lt t; have := block_lt t; omega⟩ ⟨512 * (t.val % 16) + l.val, by have := e.isLt; have := l.isLt; have := tile_lt t; have := block_lt t; omega⟩) := by
  obtain ⟨f00, f01, f10, f11, f20, f21, f30, f31, f40, f41⟩ := index_facts t
  unfold iblk
  rw [View.read_apply]
  show V m c main_v4 _ = V m c main_v4 _
  congr 1
  funext d; apply Fin.ext
  match d with
  | ⟨0, _⟩ => show win0_3.index t (0 : Fin 2) * 2048 + 1 * e.val = e.val; rw [f30]; omega
  | ⟨1, _⟩ => show win0_3.index t (1 : Fin 2) * 512 + 1 * l.val = 512 * (t.val % 16) + l.val; rw [f31]; omega

end Blocks

section Entry
variable (m : (ℓ : Loc nD τ sig) → Buf (Elt Ideal) ℓ)

/-- The hidden-state array the kernel reads is the argument with batch and sequence flattened. -/
theorem entry_hidden (c : Dev nD) :
    hiddenRows m c = LatticeSpec.flat (m ((c : Thread nD τ).loc main_arg0)) := by
  have e : hiddenRows m c
      = (truncf .bf16 (shapeCast S4096x2048 (m ((c : Thread nD τ).loc main_arg0)) shapeCasts_S2x2048x2048_S4096x2048) bitsLt_bf16_f32 : FVec Ideal S4096x2048 .bf16) := by
    show StableHlo.after hostOps0 (fun b => m (c, b)) (Proc.devRef .tc main_v1) = _
    after_results
    rfl
  rw [e]
  funext y
  obtain ⟨R, k, rfl⟩ : ∃ (R : Fin 4096) (k : Fin 2048), y = ix2 R k := ⟨y 0, y 1, eq_ix2 y⟩
  rw [truncf_apply]
  unfold LatticeSpec.flat
  refine shapeCast_apply _ _ _ _ ?_
  show (S2x2048x2048.rowMajor (ix3 (⟨R.val / 2048, by have := R.isLt; omega⟩ : Fin 2)
    (⟨R.val % 2048, Nat.mod_lt _ (by norm_num)⟩ : Fin 2048) k)).val = (S4096x2048.rowMajor (ix2 R k)).val
  rw [Shape.rowMajor_val_three, Shape.rowMajor_val_two]
  show (R.val / 2048 * 2048 + R.val % 2048) * 2048 + k.val = R.val * 2048 + k.val
  omega

/-- The first projection weight the kernel reads is the argument. -/
theorem entry_wq (c : Dev nD) : projQ m c = (m ((c : Thread nD τ).loc main_arg1) : S8192x2048.Idx → EReal) := by
  show StableHlo.after hostOps0 (fun b => m (c, b)) (Proc.devRef .tc main_v2) = _
  after_results
  rfl

/-- The second projection weight the kernel reads is the argument. -/
theorem entry_wv (c : Dev nD) : projV m c = (m ((c : Thread nD τ).loc main_arg3) : S8192x2048.Idx → EReal) := by
  show StableHlo.after hostOps0 (fun b => m (c, b)) (Proc.devRef .tc main_v3) = _
  after_results
  rfl

/-- The output weight the kernel reads is the argument. -/
theorem entry_wo (c : Dev nD) : outW m c = (m ((c : Thread nD τ).loc main_arg4) : S2048x8192.Idx → EReal) := by
  show StableHlo.after hostOps0 (fun b => m (c, b)) (Proc.devRef .tc main_v4) = _
  after_results
  rfl

end Entry

end Cert.KernelIdeal.Acc

end
-- ==== Proof.Accumulated.lean ====
/-
  The accumulator after each grid point, in closed form.

  After point `n` — lattice block `n % 16` of row tile `n / 16` — entry (r, e) of the accumulator is the sum of
  the parts contributed by lattice blocks `0 … n % 16` of that row tile: it starts again from zero at every new row
  tile and gains one block part per point. By induction on the point; the only algebra is `0 + a = a` and the
  sum over `range (k + 1)` being the sum over `range k` plus the last term.
-/
import proofs.«146152_j46780783788220_2_alg».proof.Proof.PointValues
import proofs.«146152_j46780783788220_2_alg».proof.Proof.StepValue
import proofs.«146152_j46780783788220_2_alg».proof.Proof.EntryArrays

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ)

/-- A lattice block's part of an entry, over the arrays as the kernel finds them. -/
def part (c : Dev nD) (I j : ℕ) (r : Fin 512) (e : Fin 2048) : EReal :=
  LatticeSpec.blockPart (hiddenRows m c) (projQ m c) (projV m c) (outW m c) I j r e

/-- The blocks of point `t` contribute the part of lattice block `t % 16` of row tile `t / 16`. -/
theorem contribution_at (c : Dev nD) (t : Fin cfg0.N) (r : Fin 512) (e : Fin 2048) :
    contribution (iblk m c 0 t) (iblk m c 1 t) (iblk m c 2 t) (iblk m c 3 t) r e = part m c (t.val / 16) (t.val % 16) r e := by
  unfold contribution part LatticeSpec.blockPart
  rw [dif_pos ⟨tile_lt t, block_lt t⟩]
  refine Finset.sum_congr rfl fun l _ => ?_
  unfold LatticeSpec.term
  refine congrArg₂ (· * ·) (congrArg₂ (· * ·) (Finset.sum_congr rfl fun k _ => ?_) (Finset.sum_congr rfl fun k _ => ?_))
    (wo_block m c t e l)
  · exact congrArg₂ (· * ·) (hidden_block m c t r k) (wq_block m c t l k)
  · exact congrArg₂ (· * ·) (hidden_block m c t r k) (wv_block m c t l k)

/-- The accumulator after point `n`: the first `n % 16 + 1` block parts of row tile `n / 16`. -/
theorem acc_after (c : Dev nD) : ∀ (n : ℕ) (h : n < cfg0.N) (r : Fin 512) (e : Fin 2048),
    (outsAt0 m c n h).2 (ix2 r e) = ∑ j ∈ Finset.range (n % 16 + 1), part m c (n / 16) j r e := by
  intro n
  induction n with
  | zero =>
    intro h r e
    refine (congrFun (acc_first m c ⟨0, h⟩ rfl (by show ¬(0 : ℕ) % 16 = 15; decide)) (ix2 r e)).trans ?_
    refine (step_apply _ _ _ _ _ r e).trans ?_
    rw [zeroAcc_apply, zero_add]
    refine (contribution_at m c ⟨0, h⟩ r e).trans ?_
    show part m c (0 / 16) (0 % 16) r e = _
    simp [Finset.sum_range_one]
  | succ n ih =>
    intro h r e
    have hN : n + 1 < 128 := lt_of_lt_of_eq h N_0
    by_cases h0 : (n + 1) % 16 = 0
    · have h1 : ¬(n + 1) % 16 = 15 := by omega
      refine (congrFun (acc_first m c ⟨n + 1, h⟩ h0 h1) (ix2 r e)).trans ?_
      refine (step_apply _ _ _ _ _ r e).trans ?_
      rw [zeroAcc_apply, zero_add]
      refine (contribution_at m c ⟨n + 1, h⟩ r e).trans ?_
      show part m c ((n + 1) / 16) ((n + 1) % 16) r e = _
      rw [h0, Finset.sum_range_one]
    · have e1 : (n + 1) / 16 = n / 16 := by omega
      have e2 : (n + 1) % 16 = n % 16 + 1 := by omega
      have hstep : (outsAt0 m c (n + 1) h).2
          = step (iblk m c 0 ⟨n + 1, h⟩) (iblk m c 1 ⟨n + 1, h⟩) (iblk m c 2 ⟨n + 1, h⟩) (iblk m c 3 ⟨n + 1, h⟩) (outsAt0 m c n (Nat.lt_of_succ_lt h)).2 := by
        by_cases h1 : (n + 1) % 16 = 15
        · exact acc_last m c ⟨n + 1, h⟩ h0 h1
        · exact acc_middle m c ⟨n + 1, h⟩ h0 h1
      refine (congrFun hstep (ix2 r e)).trans ?_
      refine (step_apply _ _ _ _ _ r e).trans ?_
      rw [ih (Nat.lt_of_succ_lt h) r e]
      refine (congrArg (_ + ·) (contribution_at m c ⟨n + 1, h⟩ r e)).trans ?_
      show _ + part m c ((n + 1) / 16) ((n + 1) % 16) r e = _
      rw [e1, e2]
      exact (Finset.sum_range_succ _ _).symm

/-- The same at any index of the block. -/
theorem acc_after_idx (c : Dev nD) (n : ℕ) (h : n < cfg0.N) (y : S512x2048.Idx) :
    (outsAt0 m c n h).2 y = ∑ j ∈ Finset.range (n % 16 + 1), part m c (n / 16) j (y 0) (y 1) := by
  exact (congrArg (outsAt0 m c n h).2 (eq_ix2 y)).trans (acc_after m c n h (y 0) (y 1))

end Cert.KernelIdeal.Acc

end
-- ==== Proof.ResultArray.lean ====
/-
  The kernel's result array after the run.

  The output block of row tile `I` is written back once, after its last lattice block (point `16 * I + 15`), when
  the accumulator holds all sixteen block parts, that is, the whole lattice sum of each of its 512 rows. Row `R`
  of the 4096 lies in row tile `R / 512`, so every entry of the array is written by exactly such a point, and the
  array ends holding the whole result, entry by entry.
-/
import proofs.«146152_j46780783788220_2_alg».proof.Proof.Accumulated

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ)

/-- The result over the 4096 flattened rows, from the arrays as the kernel finds them. -/
def rowsResult (c : Dev nD) : S4096x2048.Idx → EReal := fun y =>
  LatticeSpec.result (hiddenRows m c) (projQ m c) (projV m c) (outW m c) (y 0) (y 1)

/-- What a write-back stores is the block of the result it covers. -/
theorem flushed_eq (c : Dev nD) (t : Fin cfg0.N) (hf : (cfg0.win 4).flush t = true) :
    (dats m 0 c).flushed 4 t = ((cfg0.win 4).blk t).view.read (Elt Ideal) (rowsResult m c) := by
  have h15 : t.val % 16 = 15 := (flush0_4 t).mp hf
  have h0 : ¬t.val % 16 = 0 := by omega
  obtain ⟨-, -, -, -, -, -, -, -, f40, f41⟩ := index_facts t
  show (cfg0.win 4).cut (grid0.coords t) ((dats m 0 c).after 4 t) = _
  rw [after0_4, out_last m c t h0 h15]
  funext y
  show (outsAt0 m c t.val t.isLt).2 y = rowsResult m c (((cfg0.win 4).blk t).view.emb y)
  refine (acc_after_idx m c t.val t.isLt y).trans ?_
  rw [h15]
  refine (LatticeSpec.sum_blockParts _ _ _ _ (t.val / 16) (tile_lt t) (y 0) (y 1)).trans ?_
  unfold rowsResult
  congr 1
  · apply Fin.ext
    show 512 * (t.val / 16) + (y 0).val = win0_4.index t (0 : Fin 2) * 512 + 1 * (y 0).val
    rw [f40]; omega
  · apply Fin.ext
    show (y 1).val = win0_4.index t (1 : Fin 2) * 2048 + 1 * (y 1).val
    rw [f41]; omega

/-- An index of the array is in a point's block iff each coordinate is in the block's range on its axis. -/
theorem mem_blk (t : Fin cfg0.N) (i : S4096x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v5).slice (win0_4.rect t)).set ↔ _
  rw [View.set_slice_whole, Rect.mem_set_unit]
  exact Iff.rfl

/-- Every entry of the array is written back by the last lattice block of its row tile. -/
theorem covered (i : S4096x2048.Idx) :
    ∃ t : Fin cfg0.N, (cfg0.win 4).flush t = true ∧ i ∈ ((cfg0.win 4).blk t).view.set := by
  have hi0 : (i 0).val < 4096 := idx2_lt0 i
  have hi1 : (i 1).val < 2048 := idx2_lt1 i
  have hN : cfg0.N = 128 := N_0
  have hlt : 16 * ((i 0).val / 512) + 15 < cfg0.N := by rw [hN]; omega
  obtain ⟨-, -, -, -, -, -, -, -, f40, f41⟩ := index_facts ⟨16 * ((i 0).val / 512) + 15, hlt⟩
  refine ⟨⟨16 * ((i 0).val / 512) + 15, hlt⟩, (flush0_4 _).mpr (by show (16 * ((i 0).val / 512) + 15) % 16 = 15; omega), ?_⟩
  rw [mem_blk]
  intro a
  match a with
  | ⟨0, _⟩ =>
    show win0_4.index ⟨16 * ((i 0).val / 512) + 15, hlt⟩ (0 : Fin 2) * 512 ≤ (i 0).val
      ∧ (i 0).val < win0_4.index ⟨16 * ((i 0).val / 512) + 15, hlt⟩ (0 : Fin 2) * 512 + 512
    rw [f40]
    show (16 * ((i 0).val / 512) + 15) / 16 * 512 ≤ (i 0).val ∧ (i 0).val < (16 * ((i 0).val / 512) + 15) / 16 * 512 + 512
    omega
  | ⟨1, _⟩ =>
    show win0_4.index ⟨16 * ((i 0).val / 512) + 15, hlt⟩ (1 : Fin 2) * 2048 ≤ (i 1).val
      ∧ (i 1).val < win0_4.index ⟨16 * ((i 0).val / 512) + 15, hlt⟩ (1 : Fin 2) * 2048 + 2048
    rw [f41]
    omega

/-- The result array after the run holds the whole result. -/
theorem result_array (c : Dev nD) : (dats m 0 c).arrAt 4 cfg0.N = rowsResult m c :=
  (dats m 0 c).arrAt_eq_of_cover 4 (rowsResult m c) (flushed_eq m c) covered

end Cert.KernelIdeal.Acc

end
-- ==== Proof.KernelRun.lean ====
/-
  The idealized kernel's run, with its result named.

  After the kernel, the program reshapes the 4096 × 2048 result array back to batch × sequence × embedding;
  entry (b, s, e) of the program's result is entry (2048 * b + s, e) of the array. In terms of the arguments
  (the arrays the kernel reads are the flattened hidden states and the weights themselves) it is the whole
  lattice sum for sequence position `s` of batch `b`.
-/
import proofs.«146152_j46780783788220_2_alg».proof.Proof.ResultArray

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ) (ρ : Dev nD → PrngReg)

/-- The program's result: the result array reshaped to batch × sequence × embedding. -/
def programResult (c : Dev nD) : S2x2048x2048.Idx → EReal :=
  shapeCast S2x2048x2048 (rowsResult m c) shapeCasts_S4096x2048_S2x2048x2048

/-- The one operation after the kernel leaves the program's result in the result buffer. -/
theorem tail_value (c : Dev nD) :
    Pipeline.afterTail₀ cfgs (dats m) 0 (V0 m) [hostOps1] c main_v6 = programResult m c := by
  unfold Pipeline.afterTail₀
  show StableHlo.after hostOps1 _ (Proc.devRef .tc main_v6) = _
  after_results
  show shapeCast S2x2048x2048 (Pipeline.withArrays spec0 c (V0 m c) (fun w => (dats m 0 c).arrAt w cfg0.N)
    (Proc.devRef .tc (Pipeline.arrRef spec0 4))) shapeCasts_S4096x2048_S2x2048x2048 = _
  rw [Pipeline.withArrays_arr spec0 launch0.win.arr_inj c _ _ 4, result_array m c]
  rfl

/-- Every weakly fair execution of the idealized kernel program terminates with the program's result in the
    result buffer and the five arguments unchanged. -/
theorem run : θ_run defs (onTc (τ := τ) (main (F := Ideal))) ⟨m, fun _ => 0, ρ⟩ fun r => ∀ c : Dev nD,
      r.2.mem ((c.tc : Thread nD τ).loc main_v6) = programResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- Entry (b, s, e) of the program's result is the lattice sum of row `2048 * b + s` of the flattened hidden-state
    argument, with the weight arguments themselves. -/
theorem programResult_apply (c : Dev nD) (b : Fin 2) (s e : Fin 2048) :
    programResult m c (ix3 b s e)
      = LatticeSpec.result (LatticeSpec.flat (m ((c.tc : Thread nD τ).loc main_arg0))) (m ((c.tc : Thread nD τ).loc main_arg1))
          (m ((c.tc : Thread nD τ).loc main_arg3)) (m ((c.tc : Thread nD τ).loc main_arg4))
          ⟨2048 * b.val + s.val, by have := b.isLt; have := s.isLt; omega⟩ e := by
  unfold programResult
  rw [shapeCast_apply (rowsResult m c) shapeCasts_S4096x2048_S2x2048x2048 (ix3 b s e)
    (ix2 ⟨2048 * b.val + s.val, by have := b.isLt; have := s.isLt; omega⟩ e) (by
      rw [Shape.rowMajor_val_two, Shape.rowMajor_val_three]
      show (2048 * b.val + s.val) * 2048 + e.val = (b.val * 2048 + s.val) * 2048 + e.val
      omega)]
  unfold rowsResult
  rw [entry_hidden, entry_wq, entry_wv, entry_wo]

end Cert.KernelIdeal.Acc

end
-- ==== Proof.RefValue.lean ====
/-
  The reference's result, entry by entry.

  The reference projects the hidden states with the two weights (a contraction over the 2048 embedding
  coordinates for every batch, sequence position and lattice coordinate), multiplies the two projections
  pointwise, and contracts the product with the output weights over all 8192 lattice coordinates at once. Entry
  (b, s, e) is therefore the whole lattice sum for sequence position `s` of batch `b` — row `2048 * b + s` of the
  flattened hidden states.
-/
import proofs.«146152_j46780783788220_2_alg».proof.Proof.Gen.ReferenceIdeal.Read
import proofs.«146152_j46780783788220_2_alg».proof.Proof.LatticeSpec

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Cert.ReferenceIdeal.Read Idealize.ShloMosaic.ValueIdx

/-- Entry (b, s, e) of the reference's result is the lattice sum of row `2048 * b + s`. -/
theorem result_apply (x0 : (⟨S2x2048x2048, .f32⟩ : BufTy).Contents (Elt Ideal))
    (x1 x3 : (⟨S8192x2048, .f32⟩ : BufTy).Contents (Elt Ideal)) (x4 : (⟨S2048x8192, .f32⟩ : BufTy).Contents (Elt Ideal))
    (b : Fin 2) (s e : Fin 2048) :
    val_main_v4 (F := Ideal) x0 x1 x3 x4 (ix3 b s e)
      = LatticeSpec.result (LatticeSpec.flat x0) x1 x3 x4
          ⟨2048 * b.val + s.val, by have := b.isLt; have := s.isLt; omega⟩ e := by
  rw [val_main_v4_apply]
  unfold LatticeSpec.result
  refine Finset.sum_congr rfl fun lam _ => ?_
  rw [val_main_v3_apply, val_main_v0_apply, val_main_v2_apply]
  unfold LatticeSpec.term
  have i0 : ∀ k : Fin 2048, lidx_main_v0 (lidx_main_v4 (ix3 b s e) lam) k = ix3 b s k := fun k => funext fun a => by
    match a with | ⟨0, _⟩ => rfl | ⟨1, _⟩ => rfl | ⟨2, _⟩ => rfl
  have i1 : ∀ k : Fin 2048, ridx_main_v0 (lidx_main_v4 (ix3 b s e) lam) k = ix2 lam k := fun k => funext fun a => by
    match a with | ⟨0, _⟩ => rfl | ⟨1, _⟩ => rfl
  have i2 : ∀ k : Fin 2048, lidx_main_v2 (lidx_main_v4 (ix3 b s e) lam) k = ix3 b s k := fun k => funext fun a => by
    match a with | ⟨0, _⟩ => rfl | ⟨1, _⟩ => rfl | ⟨2, _⟩ => rfl
  have i3 : ∀ k : Fin 2048, ridx_main_v2 (lidx_main_v4 (ix3 b s e) lam) k = ix2 lam k := fun k => funext fun a => by
    match a with | ⟨0, _⟩ => rfl | ⟨1, _⟩ => rfl
  have i4 : ridx_main_v4 (ix3 b s e) lam = ix2 e lam := funext fun a => by
    match a with | ⟨0, _⟩ => rfl | ⟨1, _⟩ => rfl
  simp only [i0, i1, i2, i3, i4, LatticeSpec.flat_apply, Ideal.mulf_def]

end Cert.ReferenceIdeal.RefValue

end
-- ==== Proof.lean ====
/-
  The fused lattice-attention kernel against its reference, over the extended reals.

  Both programs compute, for every batch `b`, sequence position `s` and embedding coordinate `e`,
      `∑ λ < 8192, ((∑ k, x (b, s, k) * Wq (λ, k)) * (∑ k, x (b, s, k) * Wv (λ, k))) * Wout (e, λ)`.
  The reference contracts over all 8192 lattice coordinates at once. The kernel flattens batch and sequence to
  4096 rows, cuts the rows into 8 tiles of 512 and the lattice axis into 16 blocks of 512, and for each row tile
  adds the sixteen block parts one after the other onto an accumulator that starts at zero, storing the
  accumulator as the row tile's output after the last block; its changes of float format are the identity over
  the extended reals. The two results differ only in how one finite sum is grouped, which is valid in any additive
  commutative monoid — so the argument never uses that the inputs are finite.

  The frames of the two kernel programs are the generated frame proofs; the reference's frame is its generated
  run with the result dropped. The kernel's idealization rewrote no operation, so there is nothing to preserve.
-/
import proofs.«146152_j46780783788220_2_alg».proof.Defs
import proofs.«146152_j46780783788220_2_alg».proof.Proof.Gen.Kernel
import proofs.«146152_j46780783788220_2_alg».proof.Proof.Gen.Kernel.Skeleton
import proofs.«146152_j46780783788220_2_alg».proof.Proof.Gen.Kernel.Launch
import proofs.«146152_j46780783788220_2_alg».proof.Proof.Gen.Kernel.Points
import proofs.«146152_j46780783788220_2_alg».proof.Proof.Gen.Kernel.Frame
import proofs.«146152_j46780783788220_2_alg».proof.Proof.Gen.KernelIdeal
import proofs.«146152_j46780783788220_2_alg».proof.Proof.Gen.KernelIdeal.Skeleton
import proofs.«146152_j46780783788220_2_alg».proof.Proof.Gen.KernelIdeal.Launch
import proofs.«146152_j46780783788220_2_alg».proof.Proof.Gen.KernelIdeal.Points
import proofs.«146152_j46780783788220_2_alg».proof.Proof.Gen.KernelIdeal.Frame
import proofs.«146152_j46780783788220_2_alg».proof.Proof.Gen.ReferenceIdeal
import proofs.«146152_j46780783788220_2_alg».proof.Proof.Gen.Pre_finite_inputs
import proofs.«146152_j46780783788220_2_alg».proof.Proof.Gen.ReferenceIdeal.Run
import proofs.«146152_j46780783788220_2_alg».proof.Proof.Gen.ReferenceIdeal.Read
import proofs.«146152_j46780783788220_2_alg».proof.Proof.KernelRun
import proofs.«146152_j46780783788220_2_alg».proof.Proof.RefValue
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel program ends with the lattice sum regrouped block by block and the
    reference with the lattice sum itself: entry by entry the same extended real. -/
theorem algebraic : Cert.algebraic_KernelIdeal_ReferenceIdeal := by
  intro m ρ m' ρ' _ hagree
  refine ⟨fun c => Cert.KernelIdeal.Acc.programResult m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2.2.1, (hagree c).2.2.2.2]
  funext i
  obtain ⟨b, s, e, rfl⟩ : ∃ (b : Fin 2) (s e : Fin 2048), i = ix3 b s e := ⟨i 0, i 1, i 2, eq_ix3 i⟩
  rw [Cert.ReferenceIdeal.RefValue.result_apply]
  exact (Cert.KernelIdeal.Acc.programResult_apply m c b s e).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
